-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result buffer named.

  The program is four stretches in a row: one host reshape, the projection pipeline, sixteen host
  operations (the sparse gather, scale and scatter-add), and the rectifier pipeline. The contents of the
  unscoped buffers at the end of the last stretch are the fold `W4` through those four stretches. Here
  the run is restated so that its final state names the result buffer: it holds `W4` read at that
  buffer, and every argument array holds what it was launched with. What `W4` is at the result buffer,
  as a function of the argument arrays, is worked out stretch by stretch in the sibling modules.
-/
import proofs.«140295_j28836410425908_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; at the end the result buffer holds the last
    boundary's contents at that buffer, and the six argument arrays are as launched. -/
theorem run_named : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Whole

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.ProjBody.lean ====
/-
  What the projection kernel's body stores, read at one entry.

  The body loads a 5000×128 block of `x`, the whole 128×128 weight and the 1×128 bias row, rounds the
  first two to bf16 (the identity on the extended reals), multiplies them into a zero accumulator and adds
  the bias row repeated down the 5000 rows. So entry `(p, c)` of what it stores is
  `Σ_k X[p, k] · W[k, c] + B[0, c]`.
-/
import proofs.«140295_j28836410425908_1_alg».proof.Proof.Gen.KernelIdeal.Skeleton
import proofs.«140295_j28836410425908_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Whole

open Idealize.ShloMosaic Idealize.ShloMosaic.ValueIdx Cert.KernelIdeal Cert.KernelIdeal.Gen

/-- The body's product contracts the block's columns against the weight's rows. -/
theorem body_dot_plain : Cert.PlainDot.IsPlain dot_S5000x128_S128x128_S5000x128_1_0_0_1_n_n :=
  ⟨rfl, rfl, rfl, rfl, rfl, rfl⟩

/-- The bias row repeated down the block's rows holds, at `(p, c)`, the row's entry `c`. -/
theorem bias_rows_apply (B : Vec Ideal S1x128 .f32) (p : Fin 5000) (c : Fin 128) :
    broadcastTo S5000x128 (shapeCast S1x128 B shapeCasts_S1x128_S1x128) broadcasts_S1x128_S5000x128 (ix2 p c)
      = B (ix2 (0 : Fin 1) c) := by
  rw [shapeCast_self]
  exact broadcastTo_apply B broadcasts_S1x128_S5000x128 (ix2 p c) (ix2 (0 : Fin 1) c) (fun a => by
    match a with
    | ⟨0, _⟩ => show (0 : ℕ) = if (1 : ℕ) = 1 then 0 else _; rw [if_pos rfl]
    | ⟨1, _⟩ => show c.val = if (128 : ℕ) = 1 then 0 else c.val; rw [if_neg (by decide)])

/-- The stored value at `(p, c)`: the row of the block against the column of the weight, plus the bias. -/
theorem proj_pay_apply (X : Vec Ideal S5000x128 .f32) (Wt : Vec Ideal S128x128 .f32) (B : Vec Ideal S1x128 .f32)
    (p : Fin 5000) (c : Fin 128) :
    k0_pay1 (F := Ideal) X Wt B (ix2 p c)
      = (∑ k : Fin 128, X (ix2 p k) * Wt (ix2 k c)) + B (ix2 (0 : Fin 1) c) := by
  unfold k0_pay1
  show (matmul (F := Ideal) dot_S5000x128_S128x128_S5000x128_1_0_0_1_n_n none (truncf .bf16 X bitsLt_bf16_f32)
        (truncf .bf16 Wt bitsLt_bf16_f32) (constant (F := Ideal) S5000x128 .f32 0x00000000#32) (ix2 p c))
      + (broadcastTo S5000x128 (shapeCast S1x128 B shapeCasts_S1x128_S1x128) broadcasts_S1x128_S5000x128 (ix2 p c)) = _
  refine congrArg₂ (· + ·) ?_ (bias_rows_apply B p c)
  exact Cert.PlainDot.matmul_zero_apply body_dot_plain none (φ₁ := .bf16) (φ₂ := .bf16) X Wt p c

end Cert.KernelIdeal.Whole

end
-- ==== Proof.Spec.lean ====
/-
  The two dense stages of the graph layer as functions of whole arrays over the extended reals.

  `proj x W b` is the linear layer: entry `(i, c)` is `Σ_k x[i, k] · W[k, c] + b[c]`.
  `relu h` is the rectifier: entry `(i, c)` is `max h[i, c] 0`, the zero kept as the f32 word it is
  printed with (the same word stands on both sides of the comparison, so it is never evaluated).
  Between the two sits the sparse aggregation, which both programs compute by the same sixteen host
  operations; it is named where those operations are read.
-/
import Idealize.ShloMosaic.PureOps.Ideal
import Idealize.ShloMosaic.Lib.ValueIdx

noncomputable section

open scoped BigOperators

namespace Cert.Spec

open Idealize.ShloMosaic Idealize.ShloMosaic.ValueIdx

/-- The linear layer over 100000 rows of 128 features: `x · W + b`, entry by entry. -/
def proj (x : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => (∑ k : Fin 128, x (ix2 (n0 := 100000) (n1 := 128) (i 0) k) * W (ix2 (n0 := 128) (n1 := 128) k (i 1)))
    + b (ix1 (n := 128) (i 1))

/-- The linear layer read at row `r`, column `c`. -/
theorem proj_apply (x : (⟨2, ![100000, 128]⟩ : Shape).Idx → EReal) (W : (⟨2, ![128, 128]⟩ : Shape).Idx → EReal)
    (b : (⟨1, ![128]⟩ : Shape).Idx → EReal) (r : Fin 100000) (c : Fin 128) :
    proj x W b (ix2 r c) = (∑ k : Fin 128, x (ix2 r k) * W (ix2 k c)) + b (ix1 c) := rfl

/-- The rectifier over the same array. -/
def relu (h : (⟨2, ![100000, 128]⟩ : Shape).Idx → EReal) : (⟨2, ![100000, 128]⟩ : Shape).Idx → EReal :=
  fun i => max (h i) (Ideal.ofBits .f32 0x00000000#32)

end Cert.Spec

end
-- ==== Proof.ProjValue.lean ====
/-
  The projection pipeline's output array, from the arrays it is entered with.

  The pipeline walks 20 grid points; at point `t` it reads rows `5000·t … 5000·t + 4999` of `x`, the whole
  weight and the whole bias row, and writes rows `5000·t … 5000·t + 4999` of the output. The blocks tile
  the 100000 rows, so the output array ends as the linear layer `x · W + b` of the entry arrays, where
  `b` is the bias row's only row.
-/
import proofs.«140295_j28836410425908_1_alg».proof.Proof.Gen.KernelIdeal.Frame
import proofs.«140295_j28836410425908_1_alg».proof.Proof.ProjBody
import proofs.«140295_j28836410425908_1_alg».proof.Proof.Spec

set_option maxRecDepth 16384

noncomputable section

open scoped BigOperators

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point `t`: the row blocks of `x` and of the output are block `t`;
    the weight and the bias row are always block 0. -/
theorem proj_block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `5000·t + p` of the array. -/
def projRow (t : Fin cfg0.N) (p : Fin 5000) : Fin 100000 :=
  ⟨t.val * 5000 + p.val, by
    have ht : t.val < grid0.N := t.isLt
    rw [N_0] at ht
    have hp := p.isLt
    omega⟩

/-- The block of `x` at point `t`, read at `(p, k)`. -/
theorem proj_x_block (c : Dev nD) (t : Fin cfg0.N) (p : Fin 5000) (k : Fin 128) :
    iblk0 V c 0 t (ix2 p k) = V c main_arg0 (ix2 (projRow t p) k) := by
  obtain ⟨e0, e1, -⟩ := proj_block_index t
  have h : ((cfg0.win 0).blk t).view.emb (ix2 p k) = ix2 (projRow t p) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  show V c main_arg0 (((cfg0.win 0).blk t).view.emb (ix2 p k)) = V c main_arg0 (ix2 (projRow t p) k)
  rw [h]

/-- The weight's block at any point is the whole weight. -/
theorem proj_w_block (c : Dev nD) (t : Fin cfg0.N) (k q : Fin 128) :
    iblk0 V c 1 t (ix2 k q) = V c main_arg4 (ix2 k q) := by
  obtain ⟨-, -, e2, e3, -⟩ := proj_block_index t
  have h : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  show V c main_arg4 (((cfg0.win 1).blk t).view.emb (ix2 k q)) = V c main_arg4 (ix2 k q)
  rw [h]

/-- The bias row's block at any point is the whole row. -/
theorem proj_b_block (c : Dev nD) (t : Fin cfg0.N) (q : Fin 128) :
    iblk0 V c 2 t (ix2 (0 : Fin 1) q) = V c main_v0 (ix2 (0 : Fin 1) q) := by
  obtain ⟨-, -, -, -, e4, e5, -⟩ := proj_block_index t
  have h : ((cfg0.win 2).blk t).view.emb (ix2 (0 : Fin 1) q) = ix2 (0 : Fin 1) q := by
    funext a; apply Fin.ext
    match a with
    | ⟨0, _⟩ => show win0_2.index t (0 : Fin 2) * 1 + 1 * (0 : Fin 1).val = (0 : Fin 1).val; omega
    | ⟨1, _⟩ => show win0_2.index t (1 : Fin 2) * 128 + 1 * q.val = q.val; omega
  show V c main_v0 (((cfg0.win 2).blk t).view.emb (ix2 (0 : Fin 1) q)) = V c main_v0 (ix2 (0 : Fin 1) q)
  rw [h]

/-- Entry `(p, q)` of the output's block `t` is entry `(5000·t + p, q)` of the array. -/
theorem proj_out_index (t : Fin cfg0.N) (p : Fin 5000) (q : Fin 128) :
    ((cfg0.win 3).blk t).view.emb (ix2 p q) = ix2 (projRow t p) q := by
  obtain ⟨-, -, -, -, -, -, e6, e7⟩ := proj_block_index t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point `t` writes back is block `t` of the linear layer of the entry arrays. -/
theorem proj_flushed (c : Dev nD) (t : Fin cfg0.N)
    (x : (⟨2, ![100000, 128]⟩ : Shape).Idx → EReal) (W : (⟨2, ![128, 128]⟩ : Shape).Idx → EReal)
    (b : (⟨1, ![128]⟩ : Shape).Idx → EReal)
    (hx : V c main_arg0 = x) (hW : V c main_arg4 = W)
    (hb : ∀ q : Fin 128, V c main_v0 (ix2 (0 : Fin 1) q) = b (ix1 q)) :
    (dat0 V c).flushed 3 t = ((cfg0.win 3).blk t).view.read (Elt Ideal) (Cert.Spec.proj x W b) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 (n0 := 5000) (n1 := 128) j⟩
  show k0_pay1 (F := Ideal) (iblk0 V c 0 t) (iblk0 V c 1 t) (iblk0 V c 2 t) (ix2 p q)
    = Cert.Spec.proj x W b (((cfg0.win 3).blk t).view.emb (ix2 p q))
  rw [proj_out_index t p q, Cert.Spec.proj_apply]
  refine (proj_pay_apply (iblk0 V c 0 t) (iblk0 V c 1 t) (iblk0 V c 2 t) p q).trans ?_
  refine congrArg₂ (· + ·) (Finset.sum_congr rfl fun k _ => ?_) ?_
  · rw [proj_x_block V c t p k, proj_w_block V c t k q, hx, hW]
  · rw [proj_b_block V c t q, hb q]

/-- An index of the output array is in block `t` iff each coordinate is in the block's range. -/
theorem proj_mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every index of the output array lies in the block of the point `row / 5000`, which is written back. -/
theorem proj_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  have hlt : (i 0).val / 5000 < grid0.N := by rw [hN]; omega
  refine ⟨⟨(i 0).val / 5000, hlt⟩, flush0_3 _, ?_⟩
  rw [proj_mem_block]
  obtain ⟨-, -, -, -, -, -, e6, e7⟩ := proj_block_index ⟨(i 0).val / 5000, hlt⟩
  have e6' : win0_3.index ⟨(i 0).val / 5000, hlt⟩ (0 : Fin 2) = (i 0).val / 5000 := e6
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    omega

/-- The output array after the pipeline: the linear layer of the entry arrays. -/
theorem proj_final (c : Dev nD)
    (x : (⟨2, ![100000, 128]⟩ : Shape).Idx → EReal) (W : (⟨2, ![128, 128]⟩ : Shape).Idx → EReal)
    (b : (⟨1, ![128]⟩ : Shape).Idx → EReal)
    (hx : V c main_arg0 = x) (hW : V c main_arg4 = W)
    (hb : ∀ q : Fin 128, V c main_v0 (ix2 (0 : Fin 1) q) = b (ix1 q)) :
    (dat0 V c).arrAt 3 cfg0.N = Cert.Spec.proj x W b :=
  (dat0 V c).arrAt_eq_of_cover 3 (Cert.Spec.proj x W b) (fun t _ => proj_flushed V c t x W b hx hW hb) proj_cover

end Cert.KernelIdeal.Whole

end
-- ==== Proof.ReluValue.lean ====
/-
  The rectifier pipeline's output array, from the array it is entered with.

  At grid point `t` the body reads rows `5000·t … 5000·t + 4999` of its input, takes the maximum of each
  entry with zero, and writes the same rows of the output. The blocks tile the 100000 rows, so the output
  array ends as the rectifier of the input array.
-/
import proofs.«140295_j28836410425908_1_alg».proof.Proof.Gen.KernelIdeal.Frame
import proofs.«140295_j28836410425908_1_alg».proof.Proof.Spec
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem relu_zero_offsets : (![0, 0] : Fin 2 → Nat) = fun _ => 0 := funext fun a => by fin_cases a <;> rfl

/-- The stored value at an entry: the larger of the loaded entry and zero. -/
theorem relu_pay_apply (X : Vec Ideal S5000x128 .f32) (j : S5000x128.Idx) :
    k1_pay1 (F := Ideal) X j = max (X j) (Ideal.ofBits .f32 0x00000000#32) := by
  unfold k1_pay1
  show max (shapeCast S5000x128 X shapeCasts_S5000x128_S5000x128 j) (Ideal.ofBits .f32 0x00000000#32) = _
  rw [shapeCast_self]

/-- Where each window's block sits at grid point `t`: input and output are both block `t`. -/
theorem relu_block_index : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the rectifier of the entry array. -/
theorem relu_flushed (c : Dev nD) (t : Fin cfg1.N) :
    (dat1 V c).flushed 1 t = ((cfg1.win 1).blk t).view.read (Elt Ideal) (Cert.Spec.relu (V c main_v14)) := by
  show (cfg1.win 1).cut (grid1.coords t) ((dat1 V c).after 1 t) = _
  rw [after1_1]
  unfold out1_1
  rw [View.canon_unit_zero relu_zero_offsets]
  simp only [View.ld_unit_zero (S := S5000x128) relu_zero_offsets]
  obtain ⟨e0, e1, e2, e3⟩ := relu_block_index t
  funext j
  show k1_pay1 (F := Ideal) (iblk1 V c 0 t) j = Cert.Spec.relu (V c main_v14) (((cfg1.win 1).blk t).view.emb j)
  refine (relu_pay_apply (iblk1 V c 0 t) j).trans ?_
  have h : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 128 + 1 * (j 1).val = win1_1.index t (1 : Fin 2) * 128 + 1 * (j 1).val; omega
  have hx : (iblk1 V c 0 t j : EReal) = (V c main_v14 (((cfg1.win 1).blk t).view.emb j) : EReal) := by
    show (V c main_v14 (((cfg1.win 0).blk t).view.emb j) : EReal) = _
    rw [h]
  exact congrArg (fun v : EReal => max v (Ideal.ofBits .f32 0x00000000#32)) hx

/-- An index of the output array is in block `t` iff each coordinate is in the block's range. -/
theorem relu_mem_block (t : Fin cfg1.N) (i : S100000x128.Idx) :
    i ∈ ((cfg1.win 1).blk t).view.set ↔ ∀ a : Fin 2, win1_1.index t a * S5000x128.size a ≤ (i a).val
      ∧ (i a).val < win1_1.index t a * S5000x128.size a + S5000x128.size a := by
  show i ∈ ((View.whole main_v15).slice (win1_1.rect t)).set ↔ _
  rw [View.set_slice_whole, Rect.mem_set_unit]
  exact Iff.rfl

/-- Every index of the output array lies in the block of the point `row / 5000`, which is written back. -/
theorem relu_cover (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  have hN : grid1.N = 20 := N_1
  have hlt : (i 0).val / 5000 < grid1.N := by rw [hN]; omega
  refine ⟨⟨(i 0).val / 5000, hlt⟩, flush1_1 _, ?_⟩
  rw [relu_mem_block]
  obtain ⟨-, -, e2, e3⟩ := relu_block_index ⟨(i 0).val / 5000, hlt⟩
  have e2' : win1_1.index ⟨(i 0).val / 5000, hlt⟩ (0 : Fin 2) = (i 0).val / 5000 := e2
  intro a
  match a with
  | ⟨0, _⟩ =>
    show win1_1.index ⟨(i 0).val / 5000, hlt⟩ (0 : Fin 2) * 5000 ≤ (i 0).val
      ∧ (i 0).val < win1_1.index ⟨(i 0).val / 5000, hlt⟩ (0 : Fin 2) * 5000 + 5000
    omega
  | ⟨1, _⟩ =>
    show win1_1.index ⟨(i 0).val / 5000, hlt⟩ (1 : Fin 2) * 128 ≤ (i 1).val
      ∧ (i 1).val < win1_1.index ⟨(i 0).val / 5000, hlt⟩ (1 : Fin 2) * 128 + 128
    omega

/-- The output array after the pipeline: the rectifier of the entry array. -/
theorem relu_final (c : Dev nD) : (dat1 V c).arrAt 1 cfg1.N = Cert.Spec.relu (V c main_v14) :=
  (dat1 V c).arrAt_eq_of_cover 1 (Cert.Spec.relu (V c main_v14)) (fun t _ => relu_flushed V c t) relu_cover

end Cert.KernelIdeal.Whole

end
-- ==== Proof.Aggregate.lean ====
/-
  The sparse aggregation between the two dense stages, as one function of whole arrays.

  For every edge `e`: the message is `vals[e] · h[cols[e]]` (a negative column index is first shifted up by
  the row count, as array indexing does; the row gather clamps what is still out of range); the output row
  `r` is the sum of the messages of the edges with `rows[e] = r`, starting from zero. Both programs
  compute it by the same sixteen host operations, so it is carried here as one function of `h`, `rows`,
  `cols` and `vals` and never opened.
-/
import proofs.«140295_j28836410425908_1_alg».proof.Proof.Gen.KernelIdeal
import Idealize.ShloMosaic.PureOps.Ideal

noncomputable section

namespace Cert.KernelIdeal.Whole

open Idealize.ShloMosaic Cert.KernelIdeal Cert.KernelIdeal.Gen

/-- Gather the rows of `h` at the edges' columns, scale each by the edge's value, and add each into the
    edge's row of a zero array. -/
def aggregate (h : (⟨S100000x128, .f32⟩ : BufTy).Contents (Elt Ideal))
    (rows cols : (⟨S1600000, .i32⟩ : BufTy).Contents (Elt Ideal))
    (vals : (⟨S1600000, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 rows)
    (mulf (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

end Cert.KernelIdeal.Whole

end
-- ==== Proof.HostFold.lean ====
/-
  The buffer contents between the program's four stretches, read back to the argument arrays.

  Before the projection pipeline one host operation reshapes the bias vector to a 1×128 row; nothing else
  is written, so the pipeline is entered with `x`, `W` and that row. After it, the sixteen host operations
  of the sparse aggregation read the pipeline's output and the three edge arrays, none of which any
  stretch writes, and leave the aggregate in the buffer the rectifier pipeline reads.
-/
import proofs.«140295_j28836410425908_1_alg».proof.Proof.Gen.KernelIdeal.Frame
import proofs.«140295_j28836410425908_1_alg».proof.Proof.Aggregate
import Idealize.ShloMosaic.Lib.StableHlo.Run
import Idealize.ShloMosaic.Lib.ValueLayout
import Idealize.ShloMosaic.Lib.ValueIdx

set_option maxRecDepth 16384

noncomputable section

namespace Cert.KernelIdeal.Whole

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-! ## Entering the projection pipeline -/

/-- `x` is as launched. -/
theorem entry_x (c : Dev nD) : V1 m ρ c main_arg0 = m ((c : Thread nD τ).loc main_arg0) := by
  show StableHlo.after hostOps0 (W0 m ρ c) (Proc.devRef .tc main_arg0) = _
  after_results <;> rfl

/-- `W` is as launched. -/
theorem entry_W (c : Dev nD) : V1 m ρ c main_arg4 = m ((c : Thread nD τ).loc main_arg4) := by
  show StableHlo.after hostOps0 (W0 m ρ c) (Proc.devRef .tc main_arg4) = _
  after_results <;> rfl

/-- The bias row's entry `(0, q)` is the bias vector's entry `q`. -/
theorem entry_bias (c : Dev nD) (q : Fin 128) :
    V1 m ρ c main_v0 (ix2 (0 : Fin 1) q) = m ((c : Thread nD τ).loc main_arg5) (ix1 q) := by
  have e : (V1 m ρ c main_v0 : S1x128.Idx → EReal)
      = shapeCast S1x128 (m ((c : Thread nD τ).loc main_arg5)) shapeCasts_S128_S1x128 := by
    show StableHlo.after hostOps0 (W0 m ρ c) (Proc.devRef .tc main_v0) = _
    after_results <;> rfl
  rw [e]
  exact shapeCast_a_1a_apply _ _ 0 q

/-! ## Leaving it -/

/-- The pipeline's output buffer holds what its write-backs leave. -/
theorem exit_h (c : Dev nD) : W2 m ρ c (Proc.devRef .tc main_v1) = (dat0 (V1 m ρ) c).arrAt 3 cfg0.N :=
  W2_arr m ρ c 3

/-- The edges' rows are as launched. -/
theorem exit_rows (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)

/-- The edges' columns are as launched. -/
theorem exit_cols (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)

/-- The edges' values are as launched. -/
theorem exit_vals (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)

/-! ## Entering the rectifier pipeline -/

/-- The rectifier's input buffer holds the aggregate of what the projection pipeline left. -/
theorem entry_aggregate (c : Dev nD) :
    V3 m ρ c main_v14 = aggregate (W2 m ρ c (Proc.devRef .tc main_v1)) (W2 m ρ c (Proc.devRef .tc main_arg1))
      (W2 m ρ c (Proc.devRef .tc main_arg2)) (W2 m ρ c (Proc.devRef .tc main_arg3)) := by
  unfold aggregate
  show StableHlo.after hostOps1 (W2 m ρ c) (Proc.devRef .tc main_v14) = _
  after_results <;> rfl

end Cert.KernelIdeal.Whole

end
-- ==== Proof.KernelValue.lean ====
/-
  The idealized kernel's result as a function of its argument arrays.

  Read backwards through the four stretches: the result buffer holds the rectifier pipeline's output, which
  is the rectifier of the buffer it was entered with; that buffer holds the sparse aggregate of the
  projection pipeline's output and the three edge arrays; and the projection pipeline's output is the linear
  layer of `x`, `W` and the bias. So the result is `relu (aggregate (x · W + b) rows cols vals)`.
-/
import proofs.«140295_j28836410425908_1_alg».proof.Proof.KernelRun
import proofs.«140295_j28836410425908_1_alg».proof.Proof.ProjValue
import proofs.«140295_j28836410425908_1_alg».proof.Proof.ReluValue
import proofs.«140295_j28836410425908_1_alg».proof.Proof.HostFold

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The three stages composed, of the launch contents of core `c`'s argument arrays. -/
def result (c : Dev nD) : (⟨2, ![100000, 128]⟩ : Shape).Idx → EReal :=
  Cert.Spec.relu (aggregate
    (Cert.Spec.proj (m ((c : Thread nD τ).loc main_arg0)) (m ((c : Thread nD τ).loc main_arg4)) (m ((c : Thread nD τ).loc main_arg5)))
    (m ((c : Thread nD τ).loc main_arg1)) (m ((c : Thread nD τ).loc main_arg2)) (m ((c : Thread nD τ).loc main_arg3)))

/-- The projection pipeline leaves the linear layer of the launch contents. -/
theorem h_value (c : Dev nD) : W2 m ρ c (Proc.devRef .tc main_v1)
    = Cert.Spec.proj (m ((c : Thread nD τ).loc main_arg0)) (m ((c : Thread nD τ).loc main_arg4)) (m ((c : Thread nD τ).loc main_arg5)) :=
  (exit_h m ρ c).trans (proj_final (V1 m ρ) c _ _ _ (entry_x m ρ c) (entry_W m ρ c) (entry_bias m ρ c))

/-- The rectifier pipeline is entered with the aggregate of that linear layer and the launch contents of the edge arrays. -/
theorem aggregate_value (c : Dev nD) : V3 m ρ c main_v14
    = aggregate (Cert.Spec.proj (m ((c : Thread nD τ).loc main_arg0)) (m ((c : Thread nD τ).loc main_arg4)) (m ((c : Thread nD τ).loc main_arg5)))
        (m ((c : Thread nD τ).loc main_arg1)) (m ((c : Thread nD τ).loc main_arg2)) (m ((c : Thread nD τ).loc main_arg3)) := by
  refine (entry_aggregate m ρ c).trans ?_
  rw [h_value m ρ c, exit_rows m ρ c, exit_cols m ρ c, exit_vals m ρ c]

/-- The result buffer ends holding the composed stages. -/
theorem result_value (c : Dev nD) : W4 m ρ c (Proc.devRef .tc main_v15) = result m c := by
  refine (W4_arr m ρ c 1).trans ?_
  refine (relu_final (V3 m ρ) c).trans ?_
  exact congrArg Cert.Spec.relu (aggregate_value m ρ c)

/-- The run of the idealized kernel: the result buffer at the composed stages, the arguments unchanged. -/
theorem run : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (run_named m ρ)

end Cert.KernelIdeal.Whole

end
-- ==== Proof.RefValue.lean ====
/-
  The reference's result as the same three stages.

  The reference computes `h = x · W + b` by one whole-array product and a broadcast bias, then the sparse
  aggregation by the same host operations as the kernel's program, then `max · 0` against a broadcast zero.
  Stage by stage: its `h` is the linear layer entry by entry; its aggregation is the kernel program's
  aggregation of that `h` (the two programs print the same operations, each over its own copy of the
  shape and dimension records, and the copies are equal); its last stage is the rectifier.
-/
import proofs.«140295_j28836410425908_1_alg».proof.Proof.Gen.ReferenceIdeal.Read
import proofs.«140295_j28836410425908_1_alg».proof.Proof.Spec
import proofs.«140295_j28836410425908_1_alg».proof.Proof.Aggregate
import proofs.«140295_j28836410425908_1_alg».proof.Proof.LibPlainDot

noncomputable section

open scoped BigOperators

namespace Cert.ReferenceIdeal.RefValue

open Idealize.ShloMosaic Idealize.ShloMosaic.ValueIdx
open Cert.ReferenceIdeal Cert.ReferenceIdeal.Gen Cert.ReferenceIdeal.Read

/-- The reference's product contracts the rows' features against the weight's rows. -/
theorem ref_dot_plain : Cert.PlainDot.IsPlain dot_S100000x128_S128x128_S100000x128_1_0_0_1_n_n :=
  ⟨rfl, rfl, rfl, rfl, rfl, rfl⟩

/-- The reference's `x @ W + b` is the linear layer, entry by entry. -/
theorem ref_proj (x0 : (⟨S100000x128, .f32⟩ : BufTy).Contents (Elt Ideal)) (x4 : (⟨S128x128, .f32⟩ : BufTy).Contents (Elt Ideal))
    (x5 : (⟨S128, .f32⟩ : BufTy).Contents (Elt Ideal)) :
    val_main_v3 (F := Ideal) x0 x4 x5 = Cert.Spec.proj x0 x4 x5 := by
  funext i
  obtain ⟨r, c, rfl⟩ : ∃ (r : Fin 100000) (c : Fin 128), i = ix2 r c := ⟨i 0, i 1, eq_ix2 (n0 := 100000) (n1 := 128) i⟩
  rw [val_main_v3_apply, Cert.Spec.proj_apply]
  show val_main_v0 (F := Ideal) x0 x4 (ix2 r c) + val_main_v2 (F := Ideal) x5 (ix2 r c) = _
  refine congrArg₂ (· + ·) ?_ ?_
  · unfold val_main_v0
    exact Cert.PlainDot.dotGeneral_apply ref_dot_plain none (φ₁ := .f32) (φ₂ := .f32) x0 x4 r c
  · rw [val_main_v2_apply, val_main_v1_apply]
    refine congrArg x5 (funext fun a => Fin.ext ?_)
    match a with
    | ⟨0, _⟩ => rfl

/-- The reference's gather, scale and scatter-add is the aggregation of its `h`. -/
theorem ref_aggregate (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) :
    val_main_v16 (F := Ideal) x0 x1 x2 x3 x4 x5
      = Cert.KernelIdeal.Whole.aggregate (val_main_v3 (F := Ideal) x0 x4 x5) x1 x2 x3 := by
  unfold val_main_v16 val_main_v13 val_main_v11
  generalize val_main_v3 (F := Ideal) x0 x4 x5 = h
  rfl

/-- The reference's last stage is the rectifier of its aggregate. -/
theorem ref_relu (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) :
    val_main_v17 (F := Ideal) x0 x1 x2 x3 x4 x5 = Cert.Spec.relu (val_main_v16 (F := Ideal) x0 x1 x2 x3 x4 x5) := by
  funext i
  rw [val_main_v17_apply, val_main_call0_v0_apply, val_main_call0_cst_apply]
  rfl

/-- The reference's result: the rectifier of the aggregation of the linear layer. -/
theorem ref_value (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) :
    val_main_v17 (F := Ideal) x0 x1 x2 x3 x4 x5
      = Cert.Spec.relu (Cert.KernelIdeal.Whole.aggregate (Cert.Spec.proj x0 x4 x5) x1 x2 x3) := by
  rw [ref_relu, ref_aggregate, ref_proj]

end Cert.ReferenceIdeal.RefValue

end
-- ==== Proof.lean ====
/-
  A graph layer: dense projection, sparse aggregation, rectifier — kernel against reference, on the extended reals.

  Both programs compute `relu (A · (x · W + b))`, where `A` is the sparse matrix given by the edge lists
  (`rows`, `cols`, `vals`). The kernel's program computes the dense projection `x · W + b` in a pipeline over
  twenty row blocks of 5000 (inputs rounded to bf16, which is the identity on the extended reals), hands the
  sparse gather / scale / scatter-add to sixteen host operations, and applies the rectifier in a second
  pipeline over the same row blocks. The reference computes the projection by one whole-array product, the
  same sixteen host operations, and a whole-array maximum with zero.

  The proof names one function of the argument arrays — the rectifier of the aggregate of the linear layer —
  and shows each program's result buffer ends holding it. No law of arithmetic beyond reading a product as a
  sum is used, so the finiteness of the inputs is never needed: the row blocks tile the rows, a block of
  the product is the product of the block, and the aggregation is the same function on both sides.

  The frames of the two kernel programs are the generated ones; the reference's frame is its generated run
  with the result dropped; the idealization rewrote nothing, so `preserves` is trivial.
-/
import proofs.«140295_j28836410425908_1_alg».proof.Defs
import proofs.«140295_j28836410425908_1_alg».proof.Proof.Gen.Kernel
import proofs.«140295_j28836410425908_1_alg».proof.Proof.Gen.Kernel.Skeleton
import proofs.«140295_j28836410425908_1_alg».proof.Proof.Gen.Kernel.Launch
import proofs.«140295_j28836410425908_1_alg».proof.Proof.Gen.Kernel.Points
import proofs.«140295_j28836410425908_1_alg».proof.Proof.Gen.Kernel.Frame
import proofs.«140295_j28836410425908_1_alg».proof.Proof.Gen.KernelIdeal
import proofs.«140295_j28836410425908_1_alg».proof.Proof.Gen.KernelIdeal.Skeleton
import proofs.«140295_j28836410425908_1_alg».proof.Proof.Gen.KernelIdeal.Launch
import proofs.«140295_j28836410425908_1_alg».proof.Proof.Gen.KernelIdeal.Points
import proofs.«140295_j28836410425908_1_alg».proof.Proof.Gen.KernelIdeal.Frame
import proofs.«140295_j28836410425908_1_alg».proof.Proof.Gen.ReferenceIdeal
import proofs.«140295_j28836410425908_1_alg».proof.Proof.Gen.Pre_finite_inputs
import proofs.«140295_j28836410425908_1_alg».proof.Proof.Gen.ReferenceIdeal.Run
import proofs.«140295_j28836410425908_1_alg».proof.Proof.Gen.ReferenceIdeal.Read
import proofs.«140295_j28836410425908_1_alg».proof.Proof.KernelValue
import proofs.«140295_j28836410425908_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the rectifier of the aggregate of the
    linear layer of those arguments in their result buffers. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2,
    Cert.ReferenceIdeal.Read.val_main_v17_eq]
  exact Cert.ReferenceIdeal.RefValue.ref_value _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
